-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288 : Shape := ⟨1, ![12288]⟩
abbrev S65536x3 : Shape := ⟨2, ![65536, 3]⟩
abbrev S_ : Shape := ⟨0, ![]⟩

class Facts : Prop where
  bcast_S_S12288 : S_.BroadcastsInDim S12288 (![] : Fin 0 → Fin S12288.rank)
  reducesTo_S12288_S_d0 : S12288.ReducesTo [0] S_
  h_S_ : 0 < S_.numel
  bcast_S_S65536x3 : S_.BroadcastsInDim S65536x3 (![] : Fin 0 → Fin S65536x3.rank)
  reducesTo_S65536x3_S_d0_1 : S65536x3.ReducesTo [0, 1] S_

variable [Facts]

def fn {F : FTy → Type} [FloatOps F] (main_arg0 : FVec F S12288 .f32) (main_arg1 : FVec F S12288 .f32) (main_arg2 : FVec F S65536x3 .f32) : IVec S_ 1 :=
  let main_v0 : FVec F S12288 .f32 := Host.absf main_arg0
  let main_cst : FVec F S_ .f32 := constant S_ .f32 0x7F800000#32
  let main_v1 : FVec F S12288 .f32 := broadcastInDim S12288 ![] bcast_S_S12288 main_cst
  let main_v2 : IVec S12288 1 := cmpf .olt main_v0 main_v1
  let main_c : IVec S_ 1 := constantI S_ 1 1#1
  let main_v3 : IVec S_ 1 := (fun x v => Host.reduce IntOp.andi x v reducesTo_S12288_S_d0 h_S_) main_v2 main_c
  let main_v4 : FVec F S12288 .f32 := Host.absf main_arg1
  let main_cst_0 : FVec F S_ .f32 := constant S_ .f32 0x7F800000#32
  let main_v5 : FVec F S12288 .f32 := broadcastInDim S12288 ![] bcast_S_S12288 main_cst_0
  let main_v6 : IVec S12288 1 := cmpf .olt main_v4 main_v5
  let main_c_1 : IVec S_ 1 := constantI S_ 1 1#1
  let main_v7 : IVec S_ 1 := (fun x v => Host.reduce IntOp.andi x v reducesTo_S12288_S_d0 h_S_) main_v6 main_c_1
  let main_v8 : IVec S_ 1 := andi main_v3 main_v7
  let main_v9 : FVec F S65536x3 .f32 := Host.absf main_arg2
  let main_cst_2 : FVec F S_ .f32 := constant S_ .f32 0x7F800000#32
  let main_v10 : FVec F S65536x3 .f32 := broadcastInDim S65536x3 ![] bcast_S_S65536x3 main_cst_2
  let main_v11 : IVec S65536x3 1 := cmpf .olt main_v9 main_v10
  let main_c_3 : IVec S_ 1 := constantI S_ 1 1#1
  let main_v12 : IVec S_ 1 := (fun x v => Host.reduce IntOp.andi x v reducesTo_S65536x3_S_d0_1 h_S_) main_v11 main_c_3
  let main_v13 : IVec S_ 1 := andi main_v8 main_v12
  main_v13
-- ==== Kernel.lean ====
abbrev S12288 : Shape := ⟨1, ![12288]⟩
abbrev S65536x3 : Shape := ⟨2, ![65536, 3]⟩
abbrev S4096x3 : Shape := ⟨2, ![4096, 3]⟩
abbrev S1024x3 : Shape := ⟨2, ![1024, 3]⟩
abbrev S1024 : Shape := ⟨1, ![1024]⟩
abbrev S1024x1 : Shape := ⟨2, ![1024, 1]⟩
abbrev S3x1024 : Shape := ⟨2, ![3, 1024]⟩
abbrev S1024x1024 : Shape := ⟨2, ![1024, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S12288, .f32⟩
  | .hbm, ⟨1, _⟩ => ⟨S12288, .f32⟩
  | .hbm, ⟨2, _⟩ => ⟨S65536x3, .f32⟩
  | .hbm, ⟨3, _⟩ => ⟨S4096x3, .f32⟩
  | .hbm, ⟨4, _⟩ => ⟨S4096x3, .f32⟩
  | .hbm, ⟨5, _⟩ => ⟨S65536x3, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x3, .f32⟩
  | .local _ .vmem, ⟨5, _⟩ => ⟨S1024x3, .f32⟩
  | .local _ .vmem, ⟨6, _⟩ => ⟨S1024x3, .f32⟩
  | .local _ .vmem, ⟨7, _⟩ => ⟨S1024x3, .f32⟩
  | .local _ .vmem, ⟨8, _⟩ => ⟨S1024x3, .f32⟩
  | _, _ => ⟨S12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_15 : BitVec 32 := 0#32
  let v35 : BitVec 1 := Scalar.cmpi .ne v34 c0_i32_15
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S12288_S4096x3 : S12288.ShapeCasts S4096x3
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  reduces_S1024x3_S1024 : S1024x3.Reduces [1] S1024
  shapeCasts_S1024_S1024x1 : S1024.ShapeCasts S1024x1
  transposes_S1024x3_p1_0_S3x1024 : S1024x3.Transposes [1, 0] S3x1024
  shapeCasts_S1024_S1x1024 : S1024.ShapeCasts S1x1024
  broadcasts_S1024x1_S1024x1024 : S1024x1.Broadcasts S1024x1024
  broadcasts_S1x1024_S1024x1024 : S1x1024.Broadcasts S1024x1024
  bitsLt_bf16_f32 : FTy.bits .bf16 < FTy.bits .f32
  dot_S1024x3_S3x1024_S1024x1024_1_0_0_1_n_n_wf : DotDims.WF S1024x3 S3x1024 S1024x1024 [1] [0] [0] [1] [] []
  dot_S1024x1024_S1024x3_S1024x3_1_0_0_1_n_n_wf : DotDims.WF S1024x1024 S1024x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S65536x3.size a
  hwx0_0 : ∀ i : grid0.Coords, EltTy.bits .f32 = 32 ∨ (Rect.block (s := S65536x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S4096x3.size a
  hwx0_1 : ∀ i : grid0.Coords, EltTy.bits .f32 = 32 ∨ (Rect.block (s := S4096x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3.size a ≤ S4096x3.size a
  hwx0_2 : ∀ i : grid0.Coords, EltTy.bits .f32 = 32 ∨ (Rect.block (s := S4096x3) S1024x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3.size a ≤ S65536x3.size a
  hwx0_3 : ∀ i : grid0.Coords, EltTy.bits .f32 = 32 ∨ (Rect.block (s := S65536x3) S1024x3.size (cc0_transform_3 i) (hinb0_3 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf
def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf

abbrev win0_0 : Pipeline.Window sig grid0 :=
  Pipeline.Window.ofSpec (Memref.whole main_arg2) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S12288 : Shape := ⟨1, ![12288]⟩
abbrev S65536x3 : Shape := ⟨2, ![65536, 3]⟩
abbrev S4096x3 : Shape := ⟨2, ![4096, 3]⟩
abbrev S_ : Shape := ⟨0, ![]⟩
abbrev S65536 : Shape := ⟨1, ![65536]⟩
abbrev S65536x1 : Shape := ⟨2, ![65536, 1]⟩
abbrev S4096 : Shape := ⟨1, ![4096]⟩
abbrev S1x4096 : Shape := ⟨2, ![1, 4096]⟩
abbrev S65536x4096 : Shape := ⟨2, ![65536, 4096]⟩
abbrev S3x4096 : Shape := ⟨2, ![3, 4096]⟩

abbrev nBuf : Space → Nat
  | .hbm => 28
  | .vmem => 0
  | .smem => 0
  | _ => 0

abbrev bufTy : (tb : Table) → Fin (tcTables nBuf tb) → BufTy
  | .hbm, ⟨0, _⟩ => ⟨S12288, .f32⟩
  | .hbm, ⟨1, _⟩ => ⟨S12288, .f32⟩
  | .hbm, ⟨2, _⟩ => ⟨S65536x3, .f32⟩
  | .hbm, ⟨3, _⟩ => ⟨S4096x3, .f32⟩
  | .hbm, ⟨4, _⟩ => ⟨S4096x3, .f32⟩
  | .hbm, ⟨5, _⟩ => ⟨S65536x3, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S4096x3, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S65536x4096, .f32⟩
  | .hbm, ⟨14, _⟩ => ⟨S65536x4096, .f32⟩
  | .hbm, ⟨15, _⟩ => ⟨S65536x4096, .f32⟩
  | .hbm, ⟨16, _⟩ => ⟨S3x4096, .f32⟩
  | .hbm, ⟨17, _⟩ => ⟨S65536x4096, .f32⟩
  | .hbm, ⟨18, _⟩ => ⟨S_, .f32⟩
  | .hbm, ⟨19, _⟩ => ⟨S65536x4096, .f32⟩
  | .hbm, ⟨20, _⟩ => ⟨S65536x4096, .f32⟩
  | .hbm, ⟨21, _⟩ => ⟨S65536x4096, .f32⟩
  | .hbm, ⟨22, _⟩ => ⟨S65536x4096, .f32⟩
  | .hbm, ⟨23, _⟩ => ⟨S_, .f32⟩
  | .hbm, ⟨24, _⟩ => ⟨S65536x4096, .f32⟩
  | .hbm, ⟨25, _⟩ => ⟨S65536x4096, .f32⟩
  | .hbm, ⟨26, _⟩ => ⟨S65536x4096, .f32⟩
  | .hbm, ⟨27, _⟩ => ⟨S65536x3, .f32⟩
  | _, _ => ⟨S12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  shapeCasts_S12288_S4096x3 : S12288.ShapeCasts S4096x3
  reducesTo_S65536x3_S65536_d1 : S65536x3.ReducesTo [1] S65536
  h_S_ : 0 < S_.numel
  bcast_S65536_S65536x1_0 : S65536.BroadcastsInDim S65536x1 (![0] : Fin 1 → Fin S65536x1.rank)
  reducesTo_S4096x3_S4096_d1 : S4096x3.ReducesTo [1] S4096
  bcast_S4096_S1x4096_1 : S4096.BroadcastsInDim S1x4096 (![1] : Fin 1 → Fin S1x4096.rank)
  bcast_S65536x1_S65536x4096_0_1 : S65536x1.BroadcastsInDim S65536x4096 (![0, 1] : Fin 2 → Fin S65536x4096.rank)
  bcast_S1x4096_S65536x4096_0_1 : S1x4096.BroadcastsInDim S65536x4096 (![0, 1] : Fin 2 → Fin S65536x4096.rank)
  transposes_S4096x3_S3x4096_1_0 : S4096x3.Transposes [1, 0] S3x4096
  bcast_S_S65536x4096 : S_.BroadcastsInDim S65536x4096 (![] : Fin 0 → Fin S65536x4096.rank)
  dot_S65536x3_S3x4096_S65536x4096_1_0_0_1_n_n_wf : DotDims.WF S65536x3 S3x4096 S65536x4096 [1] [0] [0] [1] [] []
  dot_S65536x4096_S4096x3_S65536x3_1_0_0_1_n_n_wf : DotDims.WF S65536x4096 S4096x3 S65536x3 [1] [0] [0] [1] [] []

variable [Facts₀]

def dot_S65536x3_S3x4096_S65536x4096_1_0_0_1_n_n : DotDims S65536x3 S3x4096 S65536x4096 where
  lhsContracting := [1]
  rhsContracting := [0]
  lhsNonContracting := [0]
  rhsNonContracting := [1]
  lhsBatch := []
  rhsBatch := []
  wf := dot_S65536x3_S3x4096_S65536x4096_1_0_0_1_n_n_wf
def dot_S65536x4096_S4096x3_S65536x3_1_0_0_1_n_n : DotDims S65536x4096 S4096x3 S65536x3 where
  lhsContracting := [1]
  rhsContracting := [0]
  lhsNonContracting := [0]
  rhsNonContracting := [1]
  lhsBatch := []
  rhsBatch := []
  wf := dot_S65536x4096_S4096x3_S65536x3_1_0_0_1_n_n_wf

class Facts : Prop extends Facts₀ where

variable [Facts]
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.Spec.lean ====
/-
  The function both programs compute, over the extended reals.

  Given `N` points `x_n` and `M` control points `y_m` in three coordinates and one row of momenta `c_m`
  per control point, the result is the Gaussian-kernel product

      out[n, d] = ∑_m exp( ((|x_n|² + |y_m|²) − 2·⟨x_n, y_m⟩) · (−4) ) · c[m, d],

  the exponent being `−‖x_n − y_m‖² / σ²` with `σ = 1/2`, written in the expanded form both programs use.
  The constant `2` is kept as the float word the programs spell (the same word on both sides).

  Two facts are proved here, over abstract data:
  * scaling by `−4` is dividing the negation by `1/4`, on every extended real (no finiteness needed:
    only sign rules of the product);
  * the sum over the `4096` control points is the left-nested sum `(((0 + b₀) + b₁) + b₂) + b₃` of its four
    consecutive blocks of `1024` — associativity and commutativity of `+` only, valid on all of `EReal`.
-/
import Idealize.ShloMosaic.PureOps.Ideal
import Idealize.ShloMosaic.Lib.ValueIdx
import proofs.«118039_j62027917688869_1_alg».proof.Proof.LibERealSums

noncomputable section

namespace Cert.Rbf

open Idealize.ShloMosaic Idealize.ShloMosaic.ValueIdx

/-- A matrix of `n` rows of three coordinates, as extended reals. -/
abbrev Mat3 (n : Nat) : Type := (⟨2, ![n, 3]⟩ : Shape).Idx → EReal

/-- The inner product of row `p` of `A` with row `j` of `B`. -/
def dot3 {n k : Nat} (A : Mat3 n) (B : Mat3 k) (p : Fin n) (j : Fin k) : EReal :=
  ∑ a : Fin 3, A (ix2 p a) * B (ix2 j a)

/-- The squared distance between row `p` of `P` and row `j` of `Y`, in expanded form:
    `(|x|² + |y|²) − 2·⟨x, y⟩`. -/
def sqd {n k : Nat} (P : Mat3 n) (Y : Mat3 k) (p : Fin n) (j : Fin k) : EReal :=
  (dot3 P P p p + dot3 Y Y j j) - Ideal.ofBits .f32 0x40000000#32 * dot3 P Y p j

/-- The Gaussian weight `exp(−4 · dist²)` between row `p` of `P` and row `j` of `Y`. -/
def wgt {n k : Nat} (P : Mat3 n) (Y : Mat3 k) (p : Fin n) (j : Fin k) : EReal :=
  Ideal.exp (sqd P Y p j * ((-4 : ℝ) : EReal))

/-- The weight depends only on the two rows it is taken between. -/
theorem wgt_congr {n k n' k' : Nat} (P : Mat3 n) (Y : Mat3 k) (P' : Mat3 n') (Y' : Mat3 k')
    (p : Fin n) (j : Fin k) (p' : Fin n') (j' : Fin k')
    (hP : ∀ a, P (ix2 p a) = P' (ix2 p' a)) (hY : ∀ a, Y (ix2 j a) = Y' (ix2 j' a)) :
    wgt P Y p j = wgt P' Y' p' j' := by
  unfold wgt sqd dot3
  simp only [hP, hY]

/-- Scaling by `−4` is dividing the negation by `1/4`, at the infinities too. -/
theorem scale_eq (s : EReal) : s * ((-4 : ℝ) : EReal) = Ideal.div (-s) ((1 / 4 : ℝ) : EReal) := by
  rw [Ideal.div_coe (by norm_num : (1 / 4 : ℝ) ≠ 0)]
  rw [show ((1 / (1 / 4) : ℝ)) = 4 by norm_num, show ((-4 : ℝ) : EReal) = -((4 : ℝ) : EReal) from EReal.coe_neg 4]
  rw [mul_neg, neg_mul]

/-- THE RESULT: entry `(n, d)` is the sum over all control points of weight times momentum. -/
def out (Y C : Mat3 4096) (P : Mat3 65536) : Mat3 65536 :=
  fun i => ∑ j : Fin 4096, wgt P Y (i 0) j * C (ix2 j (i 1))

/-- Control point `j` of block `k` (of `1024` consecutive control points). -/
def col (k : ℕ) (j : Fin 1024) : Fin 4096 := ⟨(1024 * k + j.val) % 4096, Nat.mod_lt _ (by norm_num)⟩

theorem col_val (k : ℕ) (hk : k < 4) (j : Fin 1024) : (col k j).val = 1024 * k + j.val := by
  have := j.isLt
  show (1024 * k + j.val) % 4096 = _
  exact Nat.mod_eq_of_lt (by omega)

/-- Point `p` of block `i` (of `1024` consecutive points). -/
def row (i : ℕ) (p : Fin 1024) : Fin 65536 := ⟨(1024 * i + p.val) % 65536, Nat.mod_lt _ (by norm_num)⟩

theorem row_val (i : ℕ) (hi : i < 64) (p : Fin 1024) : (row i p).val = 1024 * i + p.val := by
  have := p.isLt
  show (1024 * i + p.val) % 65536 = _
  exact Nat.mod_eq_of_lt (by omega)

/-- The contribution of block `k` of control points to entry `(n, d)`. -/
def blk (Y C : Mat3 4096) (P : Mat3 65536) (n : Fin 65536) (d : Fin 3) (k : ℕ) : EReal :=
  ∑ j : Fin 1024, wgt P Y n (col k j) * C (ix2 (col k j) d)

/-- The running sum after block `k`, in the order the accumulation takes: from `0`, one block at a time. -/
def part (Y C : Mat3 4096) (P : Mat3 65536) (n : Fin 65536) (d : Fin 3) : ℕ → EReal
  | 0 => 0 + blk Y C P n d 0
  | k + 1 => part Y C P n d k + blk Y C P n d (k + 1)

/-- After the fourth block the running sum is the whole sum. -/
theorem part_three (Y C : Mat3 4096) (P : Mat3 65536) (n : Fin 65536) (d : Fin 3) :
    part Y C P n d 3 = out Y C P (ix2 n d) := by
  show ((0 + blk Y C P n d 0 + blk Y C P n d 1) + blk Y C P n d 2) + blk Y C P n d 3
    = ∑ j : Fin 4096, wgt P Y n j * C (ix2 j d)
  rw [Cert.LibERealSums.sum_fin_blocks (m := 4) (n := 1024) (by norm_num) (fun k r => col k.val r)
    (fun k r => col_val k.val k.isLt r), Fin.sum_univ_four, zero_add]
  rfl

end Cert.Rbf

end
-- ==== Proof.Blocks.lean ====
/-
  The blocks the body sees, read off the arrays.

  The grid is `64 × 4`, walked with the second coordinate fastest: step `t` has row-block index `t / 4` and
  control-block index `t % 4`.  At step `t` the first window holds points `1024·(t/4) … 1024·(t/4) + 1023`,
  the second and third hold control points and momenta `1024·(t%4) … 1024·(t%4) + 1023`.  The control points
  and momenta are the flat arguments viewed as `4096 × 3` matrices, which the program does before the call.
-/
import proofs.«118039_j62027917688869_1_alg».proof.Proof.Gen.KernelIdeal.Frame
import proofs.«118039_j62027917688869_1_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The windows' block indices at step `t`, decided once over the grid. -/
theorem idx_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val % 4 ∧ win0_2.index t (1 : Fin 2) = 0
    ∧ win0_3.index t (0 : Fin 2) = t.val / 4 ∧ win0_3.index t (1 : Fin 2) = 0 :=
  (by decide +kernel : ∀ t : Fin grid0.N, _)

/-- The points, the control points and the momenta, as matrices of three columns. -/
abbrev pts (c : Dev nD) : Cert.Rbf.Mat3 65536 := m ((c : Thread nD τ).loc main_arg2)
abbrev ctl (c : Dev nD) : Cert.Rbf.Mat3 4096 := shapeCast S4096x3 (m ((c : Thread nD τ).loc main_arg0)) shapeCasts_S12288_S4096x3
abbrev mom (c : Dev nD) : Cert.Rbf.Mat3 4096 := shapeCast S4096x3 (m ((c : Thread nD τ).loc main_arg1)) shapeCasts_S12288_S4096x3

/-- When the call is entered the second window's array holds the control points as a matrix … -/
theorem V_ctl (c : Dev nD) : (V m c main_v0 : S4096x3.Idx → EReal) = ctl m c := by
  dsimp only [Gen.V, Gen.hostOps0]; after_results; rfl

/-- … and the third window's the momenta. -/
theorem V_mom (c : Dev nD) : (V m c main_v1 : S4096x3.Idx → EReal) = mom m c := by
  dsimp only [Gen.V, Gen.hostOps0]; after_results; rfl

/-- Row `p` of the first window's block at step `t` is point `1024·(t/4) + p`. -/
theorem iblk0_apply (c : Dev nD) (t : Fin cfg0.N) (p : Fin 1024) (a : Fin 3) :
    (iblk m c 0 t : Vec Ideal S1024x3 .f32) (ix2 p a) = pts m c (ix2 (Cert.Rbf.row (t.val / 4) p) a) := by
  have hN : t.val < 256 := lt_of_lt_of_eq t.isLt (show cfg0.N = 256 from N_0)
  obtain ⟨e0, e1, -⟩ := idx_facts t
  unfold iblk
  rw [View.read_apply]
  show V m c main_arg2 (((cfg0.win 0).blk t).view.emb (ix2 p a)) = _
  rw [V_main_arg2 m c]
  refine congrArg (m ((c : Thread nD τ).loc main_arg2)) (funext fun d => Fin.ext ?_)
  match d with
  | ⟨0, _⟩ =>
    show win0_0.index t (0 : Fin 2) * 1024 + 1 * p.val = (Cert.Rbf.row (t.val / 4) p).val
    rw [Cert.Rbf.row_val _ (by omega), e0]; omega
  | ⟨1, _⟩ =>
    show win0_0.index t (1 : Fin 2) * 3 + 1 * a.val = a.val
    rw [e1]; omega

/-- Row `j` of the second window's block at step `t` is control point `1024·(t%4) + j`. -/
theorem iblk1_apply (c : Dev nD) (t : Fin cfg0.N) (j : Fin 1024) (a : Fin 3) :
    (iblk m c 1 t : Vec Ideal S1024x3 .f32) (ix2 j a) = ctl m c (ix2 (Cert.Rbf.col (t.val % 4) j) a) := by
  obtain ⟨-, -, e0, e1, -⟩ := idx_facts t
  unfold iblk
  rw [View.read_apply]
  show (V m c main_v0 : S4096x3.Idx → EReal) (((cfg0.win 1).blk t).view.emb (ix2 j a)) = _
  rw [V_ctl m c]
  refine congrArg (ctl m c) (funext fun d => Fin.ext ?_)
  match d with
  | ⟨0, _⟩ =>
    show win0_1.index t (0 : Fin 2) * 1024 + 1 * j.val = (Cert.Rbf.col (t.val % 4) j).val
    rw [Cert.Rbf.col_val _ (Nat.mod_lt _ (by norm_num)), e0]; omega
  | ⟨1, _⟩ =>
    show win0_1.index t (1 : Fin 2) * 3 + 1 * a.val = a.val
    rw [e1]; omega

/-- Row `j` of the third window's block at step `t` is the momentum of control point `1024·(t%4) + j`. -/
theorem iblk2_apply (c : Dev nD) (t : Fin cfg0.N) (j : Fin 1024) (a : Fin 3) :
    (iblk m c 2 t : Vec Ideal S1024x3 .f32) (ix2 j a) = mom m c (ix2 (Cert.Rbf.col (t.val % 4) j) a) := by
  obtain ⟨-, -, -, -, e0, e1, -⟩ := idx_facts t
  unfold iblk
  rw [View.read_apply]
  show (V m c main_v1 : S4096x3.Idx → EReal) (((cfg0.win 2).blk t).view.emb (ix2 j a)) = _
  rw [V_mom m c]
  refine congrArg (mom m c) (funext fun d => Fin.ext ?_)
  match d with
  | ⟨0, _⟩ =>
    show win0_2.index t (0 : Fin 2) * 1024 + 1 * j.val = (Cert.Rbf.col (t.val % 4) j).val
    rw [Cert.Rbf.col_val _ (Nat.mod_lt _ (by norm_num)), e0]; omega
  | ⟨1, _⟩ =>
    show win0_2.index t (1 : Fin 2) * 3 + 1 * a.val = a.val
    rw [e1]; omega

end Cert.KernelIdeal.Blocks

end
-- ==== Proof.Cases.lean ====
/-
  What each control case of the body leaves behind, as values.

  The body has three cases over the second grid coordinate `k`: at `k = 0` it first stores zeros into the
  accumulator and then adds this step's contribution; at `k = 1, 2` it adds the contribution to what the
  step before left; at `k = 3` it does the same and then copies the accumulator into the output block.
  In every case the accumulator ends at the step function of the three input blocks and of the accumulator's
  contents before the step (zeros at `k = 0`), and at `k = 3` the output block ends at the same value.
-/
import proofs.«118039_j62027917688869_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- At `k = 1, 2`: the accumulator holding `xs0` ends at the step function of the blocks and `xs0`. -/
theorem acc_B (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond0_0 i) (hc1 : ¬cond0_1 i)
    (x0 x1 x2 xs0 : Vec F S1024x3 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg4.read_unread, harg6.read_unread, View.ld_unit_zero (S := S1024x3) hz]

/-- At `k = 0`: the accumulator ends at the step function of the blocks and the zero block. -/
theorem acc_A (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : cond0_0 i) (hc1 : ¬cond0_1 i)
    (x0 x1 x2 : Vec F S1024x3 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x3) hz, View.readCov_unit_zero (S := S1024x3) _ hz]
  simp only [View.readAt_eq_ld, harg2.read_unread, harg3.read_unread, harg4.read_unread, View.ld_unit_zero (S := S1024x3) hz]

/-- At `k = 3`: the accumulator holding `xs0` ends at the step function of the blocks and `xs0` … -/
theorem acc_C (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond0_0 i) (hc1 : cond0_1 i)
    (x0 x1 x2 xs0 : Vec F S1024x3 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S1024x3) hz]

/-- … and the output block, a copy of the accumulator, ends at the same value. -/
theorem out_C (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x3 .f32) (harg4 : arg4.IsWhole) (arg5 : Memref sig .tc .vmem S1024x3 .f32) (harg5 : arg5.IsWhole) (arg6 : Memref sig .tc .vmem S1024x3 .f32) (harg6 : arg6.IsWhole) (hc0 : ¬cond0_0 i) (hc1 : cond0_1 i)
    (x0 x1 x2 xs0 : Vec F S1024x3 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1024x3) _ hz]
  simp only [View.readAt_eq_ld, harg2.read_unread, harg3.read_unread, harg4.read_unread, harg6.read_unread, View.ld_unit_zero (S := S1024x3) hz]

end Cert.KernelIdeal.Cases

end
-- ==== Proof.Consts.lean ====
/-
  The two float constants whose values matter to this certificate, as the extended reals their bit
  patterns denote: the kernel scales the squared distance by `-4`, the reference divides its negation
  by `1/4`.  (The constant `2` in front of the cross term is the same word on both sides and is never
  evaluated.)
-/
import Idealize.ShloMosaic.PureOps.Ideal

noncomputable section

namespace Cert.RbfConsts

open Idealize.ShloMosaic

/-- The word `0xC0800000` is `-4`: sign set, exponent `129 = 127 + 2`, significand `1.0`. -/
theorem ofBits_neg_four : Ideal.ofBits .f32 0xC0800000#32 = ((-4 : ℝ) : EReal) := by
  simp [Ideal.ofBits, Ideal.ieee, -EReal.coe_mul]; norm_num

/-- The word `0x3E800000` is `1/4`: exponent `125 = 127 - 2`, significand `1.0`. -/
theorem ofBits_quarter : Ideal.ofBits .f32 0x3E800000#32 = ((1 / 4 : ℝ) : EReal) := by
  simp [Ideal.ofBits, Ideal.ieee, -EReal.coe_mul]; norm_num

end Cert.RbfConsts

end
-- ==== Proof.LibColumnLayout.lean ====
/-
  Layout operations on COLUMNS read at an index, written by coordinates: a vector of length `a` viewed as
  an `[a, 1]` column (what a row reduction with kept dimensions produces), and such a column broadcast
  along its unit axis to `[a, b]`.  Together with the row forms (a vector viewed as a `[1, a]` row, a row
  broadcast over many rows) they read an outer sum `u[p] + v[c]` of two vectors entry by entry.
-/
import Idealize.ShloMosaic.Lib.Pipeline.Value
import Idealize.ShloMosaic.Lib.ValueIdx

namespace Cert.LibColumnLayout

open Idealize.ShloMosaic Idealize.ShloMosaic.ValueIdx

variable {α : Type}

/-- An `[a]` vector cast to an `[a, 1]` column reads, at `(p, u)`, the operand at `p`, whatever the unit
    coordinate `u`: both have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumnLayout
-- ==== Proof.Payload.lean ====
/-
  What one grid step adds to the accumulator, entry by entry, over the extended reals.

  At a grid step the body holds a block `x0` of 1024 points, a block `x1` of 1024 control points, the
  block `x2` of their momenta and the accumulator `acc`, and stores

      acc[p, d] + ∑_j exp( ((|x0_p|² + |x1_j|²) − 2·⟨x0_p, x1_j⟩) · (−4) ) · x2[j, d].

  The squared norms are lane sums of the entrywise squares, viewed as a column and as a row and broadcast
  over the 1024 × 1024 block; the cross term and the final product are matrix products into a zero
  accumulator, each a plain sum over the contracted coordinate; the change of float format before the
  second product is the identity on extended reals.
-/
import proofs.«118039_j62027917688869_1_alg».proof.Proof.Gen.KernelIdeal.Skeleton
import proofs.«118039_j62027917688869_1_alg».proof.Proof.Spec
import proofs.«118039_j62027917688869_1_alg».proof.Proof.Consts
import proofs.«118039_j62027917688869_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.LibColumnLayout

/-- The lane sum of the entrywise squares of a block of rows is each row's inner product with itself. -/
theorem rowsq_apply (v : FVec Ideal S1024x3 .f32) (p : Fin 1024) :
    multiReduction (F := Ideal) .add [1] S1024 (mulf v v) 0x00000000#32 reduces_S1024x3_S1024 (.inl rfl) rfl (ix1 p)
      = Cert.Rbf.dot3 v v p p := by
  refine (Ideal.multiReduction_add_single (mulf v v) 0x00000000#32 reduces_S1024x3_S1024 (.inl rfl) rfl (ix1 p)).trans ?_
  unfold Cert.Rbf.dot3
  refine Finset.sum_congr rfl fun a _ => ?_
  have e : reduces_S1024x3_S1024.lift (ix1 p) a = ix2 p a :=
    funext fun d => Fin.ext (by match d with | ⟨0, _⟩ => rfl | ⟨1, _⟩ => rfl)
  rw [e]
  rfl

/-- A column of row terms `u` plus a row of column terms `w`, each broadcast over the square block, is the
    outer sum `u[p] + w[j]`. -/
theorem outer_apply (u w : FVec Ideal S1024 .f32) (p j : Fin 1024) :
    addf (broadcastTo S1024x1024 (shapeCast S1024x1 u shapeCasts_S1024_S1024x1) broadcasts_S1024x1_S1024x1024)
        (broadcastTo S1024x1024 (shapeCast S1x1024 w shapeCasts_S1024_S1x1024) broadcasts_S1x1024_S1024x1024) (ix2 p j)
      = u (ix1 p) + w (ix1 j) := by
  rw [addf_apply, broadcastTo_a1_ab_apply, shapeCast_a_a1_apply, broadcastTo_1b_ab_apply, shapeCast_a_1a_apply]

/-! The operand indices of the two matrix products, coordinate by coordinate: the row of the left operand and
    the column of the right one come from the output index, the other coordinate is the contracted one. -/

theorem cross_lhs_0 (i : S1024x1024.Idx) (q : dot_S1024x3_S3x1024_S1024x1024_1_0_0_1_n_n.contr.Idx) : (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
theorem cross_lhs_1 (i : S1024x1024.Idx) (q : dot_S1024x3_S3x1024_S1024x1024_1_0_0_1_n_n.contr.Idx) : (dot_S1024x3_S3x1024_S1024x1024_1_0_0_1_n_n.lhsIdx i q 1).val = (q ⟨0, by decide⟩).val :=
  dot_S1024x3_S3x1024_S1024x1024_1_0_0_1_n_n.lhsIdx_val_of_single rfl i q
theorem cross_rhs_0 (i : S1024x1024.Idx) (q : dot_S1024x3_S3x1024_S1024x1024_1_0_0_1_n_n.contr.Idx) : (dot_S1024x3_S3x1024_S1024x1024_1_0_0_1_n_n.rhsIdx i q 0).val = (q ⟨0, by decide⟩).val :=
  dot_S1024x3_S3x1024_S1024x1024_1_0_0_1_n_n.rhsIdx_val_of_single rfl i q
theorem cross_rhs_1 (i : S1024x1024.Idx) (q : dot_S1024x3_S3x1024_S1024x1024_1_0_0_1_n_n.contr.Idx) : (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

theorem prod_lhs_0 (i : S1024x3.Idx) (q : dot_S1024x1024_S1024x3_S1024x3_1_0_0_1_n_n.contr.Idx) : (dot_S1024x1024_S1024x3_S1024x3_1_0_0_1_n_n.lhsIdx i q 0).val = (i 0).val := by
  unfold DotDims.lhsIdx
  rw [dif_neg (show ¬(0 : Fin S1024x1024.rank) ∈ dot_S1024x1024_S1024x3_S1024x3_1_0_0_1_n_n.lhsBatch by decide), dif_pos (show (0 : Fin S1024x1024.rank) ∈ dot_S1024x1024_S1024x3_S1024x3_1_0_0_1_n_n.lhsNonContracting by decide)]
  rfl
theorem prod_lhs_1 (i : S1024x3.Idx) (q : dot_S1024x1024_S1024x3_S1024x3_1_0_0_1_n_n.contr.Idx) : (dot_S1024x1024_S1024x3_S1024x3_1_0_0_1_n_n.lhsIdx i q 1).val = (q ⟨0, by decide⟩).val :=
  dot_S1024x1024_S1024x3_S1024x3_1_0_0_1_n_n.lhsIdx_val_of_single rfl i q
theorem prod_rhs_0 (i : S1024x3.Idx) (q : dot_S1024x1024_S1024x3_S1024x3_1_0_0_1_n_n.contr.Idx) : (dot_S1024x1024_S1024x3_S1024x3_1_0_0_1_n_n.rhsIdx i q 0).val = (q ⟨0, by decide⟩).val :=
  dot_S1024x1024_S1024x3_S1024x3_1_0_0_1_n_n.rhsIdx_val_of_single rfl i q
theorem prod_rhs_1 (i : S1024x3.Idx) (q : dot_S1024x1024_S1024x3_S1024x3_1_0_0_1_n_n.contr.Idx) : (dot_S1024x1024_S1024x3_S1024x3_1_0_0_1_n_n.rhsIdx i q 1).val = (i 1).val := by
  unfold DotDims.rhsIdx
  rw [dif_neg (show ¬(1 : Fin S1024x3.rank) ∈ dot_S1024x1024_S1024x3_S1024x3_1_0_0_1_n_n.rhsBatch by decide), dif_pos (show (1 : Fin S1024x3.rank) ∈ dot_S1024x1024_S1024x3_S1024x3_1_0_0_1_n_n.rhsNonContracting by decide)]
  rfl

/-- The matrix product of a block of rows with the transpose of another, into a zero accumulator, is the
    table of inner products of the rows: the sum over the three coordinates. -/
theorem cross_apply (l y : FVec Ideal S1024x3 .f32) (p j : Fin 1024) :
    matmul (F := Ideal) dot_S1024x3_S3x1024_S1024x1024_1_0_0_1_n_n none l
        (transpose S3x1024 [1, 0] y transposes_S1024x3_p1_0_S3x1024) (constant S1024x1024 .f32 0x00000000#32) (ix2 p j)
      = Cert.Rbf.dot3 l y p j := by
  show FloatOps.matmul dot_S1024x3_S3x1024_S1024x1024_1_0_0_1_n_n none l _ _ (ix2 p j) = _
  rw [Ideal.matmul_constant_zero_apply, ← Equiv.sum_comp (contrEquiv1 dot_S1024x3_S3x1024_S1024x1024_1_0_0_1_n_n 3 rfl rfl).symm]
  unfold Cert.Rbf.dot3
  refine Finset.sum_congr rfl fun k _ => ?_
  have hk := contrEquiv1_symm_val dot_S1024x3_S3x1024_S1024x1024_1_0_0_1_n_n 3 rfl rfl k
  have el : dot_S1024x3_S3x1024_S1024x1024_1_0_0_1_n_n.lhsIdx (ix2 p j) ((contrEquiv1 dot_S1024x3_S3x1024_S1024x1024_1_0_0_1_n_n 3 rfl rfl).symm k) = ix2 p k := funext fun a => Fin.ext (by
    match a with
    | ⟨0, _⟩ => exact cross_lhs_0 _ _
    | ⟨1, _⟩ => exact (cross_lhs_1 _ _).trans hk)
  have er : dot_S1024x3_S3x1024_S1024x1024_1_0_0_1_n_n.rhsIdx (ix2 p j) ((contrEquiv1 dot_S1024x3_S3x1024_S1024x1024_1_0_0_1_n_n 3 rfl rfl).symm k) = ix2 k j := funext fun a => Fin.ext (by
    match a with
    | ⟨0, _⟩ => exact (cross_rhs_0 _ _).trans hk
    | ⟨1, _⟩ => exact cross_rhs_1 _ _)
  rw [el, er, transpose_ix2_apply]

/-- The matrix product of a square block of weights with a block of momenta, into a zero accumulator, is
    the sum over the 1024 control points of the block. -/
theorem prod_apply (K : FVec Ideal S1024x1024 .bf16) (c : FVec Ideal S1024x3 .bf16) (p : Fin 1024) (q : Fin 3) :
    matmul (F := Ideal) dot_S1024x1024_S1024x3_S1024x3_1_0_0_1_n_n none K c (constant S1024x3 .f32 0x00000000#32) (ix2 p q)
      = ∑ j : Fin 1024, K (ix2 p j) * c (ix2 j q) := by
  show FloatOps.matmul dot_S1024x1024_S1024x3_S1024x3_1_0_0_1_n_n none K c _ (ix2 p q) = _
  rw [Ideal.matmul_constant_zero_apply, ← Equiv.sum_comp (contrEquiv1 dot_S1024x1024_S1024x3_S1024x3_1_0_0_1_n_n 1024 rfl rfl).symm]
  refine Finset.sum_congr rfl fun k _ => ?_
  have hk := contrEquiv1_symm_val dot_S1024x1024_S1024x3_S1024x3_1_0_0_1_n_n 1024 rfl rfl k
  have el : dot_S1024x1024_S1024x3_S1024x3_1_0_0_1_n_n.lhsIdx (ix2 p q) ((contrEquiv1 dot_S1024x1024_S1024x3_S1024x3_1_0_0_1_n_n 1024 rfl rfl).symm k) = ix2 p k := funext fun a => Fin.ext (by
    match a with
    | ⟨0, _⟩ => exact prod_lhs_0 _ _
    | ⟨1, _⟩ => exact (prod_lhs_1 _ _).trans hk)
  have er : dot_S1024x1024_S1024x3_S1024x3_1_0_0_1_n_n.rhsIdx (ix2 p q) ((contrEquiv1 dot_S1024x1024_S1024x3_S1024x3_1_0_0_1_n_n 1024 rfl rfl).symm k) = ix2 k q := funext fun a => Fin.ext (by
    match a with
    | ⟨0, _⟩ => exact (prod_rhs_0 _ _).trans hk
    | ⟨1, _⟩ => exact prod_rhs_1 _ _)
  rw [el, er]

/-- THE STEP: what the body stores into the accumulator, entry by entry. -/
theorem pay2_apply (x0 x1 x2 acc : Vec Ideal S1024x3 .f32) (p : Fin 1024) (q : Fin 3) :
    k0_pay2 (F := Ideal) x0 x1 x2 acc (ix2 p q)
      = acc (ix2 p q) + ∑ j : Fin 1024, Cert.Rbf.wgt x0 x1 p j * x2 (ix2 j q) := by
  unfold k0_pay2
  simp only [shapeCast_self]
  refine (addf_apply _ _ _).trans (congrArg (acc (ix2 p q) + ·) ?_)
  refine (prod_apply _ _ p q).trans (Finset.sum_congr rfl fun j _ => congrArg (· * x2 (ix2 j q)) ?_)
  show Ideal.exp (_ * Ideal.ofBits .f32 0xC0800000#32) = _
  unfold Cert.Rbf.wgt Cert.Rbf.sqd
  rw [Cert.RbfConsts.ofBits_neg_four]
  refine congrArg (fun s => Ideal.exp (s * ((-4 : ℝ) : EReal))) ?_
  refine (subf_apply _ _ _).trans ?_
  rw [outer_apply, rowsq_apply, rowsq_apply, mulf_apply, broadcast_apply, cross_apply]
  rfl

end Cert.KernelIdeal.Payload

end
-- ==== Proof.KernelValue.lean ====
/-
  The kernel computes the specification.

  For each block of 1024 points the grid makes four consecutive steps, one per block of 1024 control points.
  The accumulator starts from zeros at the first of them and each step adds that block's contribution, so
  after step `k` of the four it holds the running sum `(((0 + b₀) + b₁) + …) + b_k` of the contributions; the
  fourth step also copies the accumulator into the output block, the only one that is written back.  The
  running sum after the fourth block is the whole sum over the 4096 control points (associativity and
  commutativity of `+` on the extended reals), and the 64 output blocks tile the result array.
-/
import proofs.«118039_j62027917688869_1_alg».proof.Proof.Gen.KernelIdeal.Value
import proofs.«118039_j62027917688869_1_alg».proof.Proof.Blocks
import proofs.«118039_j62027917688869_1_alg».proof.Proof.Cases
import proofs.«118039_j62027917688869_1_alg».proof.Proof.Payload
import proofs.«118039_j62027917688869_1_alg».proof.Proof.Spec
import Idealize.ShloMosaic.Lib.Pipeline.Value
import Idealize.ShloMosaic.Lib.ValueIdx
import Idealize.ShloMosaic.PureOps.Ideal.Laws

noncomputable section

namespace Cert.KernelIdeal.KernelValue

open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The block the first of the four steps stores into the accumulator is zero everywhere. -/
theorem pay1_apply (y : S1024x3.Idx) : k0_pay1 (F := Ideal) y = 0 := by
  unfold k0_pay1
  simp only [shapeCast_self]
  exact Ideal.ofBits_zero_f32

/-- ONE STEP at grid step `t` adds, to row `p` of the accumulator, the contribution of control block `t % 4`
    to point `1024·(t/4) + p`. -/
theorem step_apply (c : Dev nD) (t : Fin cfg0.N) (acc : Vec Ideal S1024x3 .f32) (p : Fin 1024) (q : Fin 3) :
    k0_pay2 (F := Ideal) (iblk m c 0 t) (iblk m c 1 t) (iblk m c 2 t) acc (ix2 p q)
      = acc (ix2 p q) + Cert.Rbf.blk (ctl m c) (mom m c) (pts m c) (Cert.Rbf.row (t.val / 4) p) q (t.val % 4) := by
  refine (Payload.pay2_apply (iblk m c 0 t) (iblk m c 1 t) (iblk m c 2 t) acc p q).trans ?_
  refine congrArg (acc (ix2 p q) + ·) ?_
  unfold Cert.Rbf.blk
  refine Finset.sum_congr rfl fun j _ => ?_
  refine congrArg₂ (· * ·) ?_ (iblk2_apply m c t j q)
  exact Cert.Rbf.wgt_congr _ _ _ _ p j _ _ (fun a => iblk0_apply m c t p a) (fun a => iblk1_apply m c t j a)

/-- At the first of the four steps the accumulator ends at `0 + b₀`. -/
theorem acc_reset (c : Dev nD) (t : Fin cfg0.N) (h0 : t.val % 4 = 0) (p : Fin 1024) (q : Fin 3) :
    (outsAt0 m c t.val t.isLt).2 (ix2 p q)
      = Cert.Rbf.part (ctl m c) (mom m c) (pts m c) (Cert.Rbf.row (t.val / 4) p) q (t.val % 4) := by
  have h1 : ¬t.val % 4 = 3 := by omega
  rw [outsAt0_A m c t h0 h1]
  dsimp only
  rw [Cases.acc_A, step_apply, pay1_apply, h0]
  rfl

/-- At each later step it ends at what the step before left plus this block's contribution. -/
theorem acc_step (c : Dev nD) (t : Fin cfg0.N) (h0 : ¬t.val % 4 = 0) (p : Fin 1024) (q : Fin 3) :
    (outsAt0 m c t.val t.isLt).2 (ix2 p q)
      = (outsAt0 m c (t.val - 1) (Nat.lt_of_le_of_lt (Nat.sub_le _ _) t.isLt)).2 (ix2 p q)
        + Cert.Rbf.blk (ctl m c) (mom m c) (pts m c) (Cert.Rbf.row (t.val / 4) p) q (t.val % 4) := by
  by_cases h1 : t.val % 4 = 3
  · rw [outsAt0_C m c t h0 h1]
    dsimp only
    rw [Cases.acc_C, step_apply]
  · rw [outsAt0_B m c t h0 h1]
    dsimp only
    rw [Cases.acc_B, step_apply]

/-- THE RUNNING SUM: after grid step `n` the accumulator holds, for the points of block `n / 4`, the sum of
    the contributions of control blocks `0 … n % 4`, taken in that order from zero — by induction on the step. -/
theorem acc_eq (c : Dev nD) : ∀ (n : ℕ) (h : n < cfg0.N) (p : Fin 1024) (q : Fin 3),
    (outsAt0 m c n h).2 (ix2 p q)
      = Cert.Rbf.part (ctl m c) (mom m c) (pts m c) (Cert.Rbf.row (n / 4) p) q (n % 4)
  | 0, h, p, q => acc_reset m c ⟨0, h⟩ rfl p q
  | n + 1, h, p, q => by
    by_cases h0 : (n + 1) % 4 = 0
    · exact acc_reset m c ⟨n + 1, h⟩ h0 p q
    · have e1 : (n + 1) / 4 = n / 4 := by omega
      have e2 : (n + 1) % 4 = n % 4 + 1 := by omega
      refine (acc_step m c ⟨n + 1, h⟩ h0 p q).trans ?_
      show (outsAt0 m c n _).2 (ix2 p q) + Cert.Rbf.blk _ _ _ (Cert.Rbf.row ((n + 1) / 4) p) q ((n + 1) % 4) = _
      rw [acc_eq c n _ p q, e1, e2]
      rfl

/-- At the fourth step the output block is a copy of the accumulator, which by then holds the whole sum. -/
theorem out_at (c : Dev nD) (t : Fin cfg0.N) (h1 : t.val % 4 = 3) (y : S1024x3.Idx) :
    (outsAt0 m c t.val t.isLt).1 y
      = Cert.Rbf.out (ctl m c) (mom m c) (pts m c) (ix2 (Cert.Rbf.row (t.val / 4) (y 0)) (y 1)) := by
  have h0 : ¬t.val % 4 = 0 := by omega
  have e : (outsAt0 m c t.val t.isLt).1 = (outsAt0 m c t.val t.isLt).2 := by
    rw [outsAt0_C m c t h0 h1]
    dsimp only
    rw [Cases.out_C, Cases.acc_C]
  obtain ⟨p, q, rfl⟩ : ∃ (p : Fin 1024) (q : Fin 3), y = ix2 p q := ⟨y 0, y 1, eq_ix2 y⟩
  rw [e, acc_eq m c t.val t.isLt p q, h1, Cert.Rbf.part_three]

/-- What the result array ends holding. -/
abbrev result (c : Dev nD) : Buf (Elt Ideal) ((c : Thread nD τ).loc main_v2) :=
  Cert.Rbf.out (ctl m c) (mom m c) (pts m c)

/-- What a fourth step writes back is its block of the result: rows `1024·(t/4) … 1024·(t/4) + 1023`. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have hN : t.val < 256 := lt_of_lt_of_eq t.isLt (show cfg0.N = 256 from N_0)
  obtain ⟨-, -, -, -, -, -, e0, e1⟩ := idx_facts t
  rw [Value.flushed3]
  funext y
  rw [View.read_apply]
  show (outsAt0 m c t.val t.isLt).1 y = result m c (((cfg0.win 3).blk t).view.emb y)
  refine (out_at m c t h1 y).trans ?_
  refine congrArg (result m c) (funext fun d => Fin.ext ?_)
  match d with
  | ⟨0, _⟩ =>
    show (Cert.Rbf.row (t.val / 4) (y 0)).val = win0_3.index t (0 : Fin 2) * 1024 + 1 * (y 0).val
    have hr := Cert.Rbf.row_val (t.val / 4) (by omega) (y 0)
    rw [e0]; omega
  | ⟨1, _⟩ =>
    show (y 1).val = win0_3.index t (1 : Fin 2) * 3 + 1 * (y 1).val
    rw [e1]; omega

/-- Every entry of the result array lies in the block some fourth step writes back: row `r` in the block of
    step `4·(r / 1024) + 3`. -/
theorem cover (i : S65536x3.Idx) :
    ∃ t : Fin cfg0.N, (cfg0.win 3).flush t = true ∧ i ∈ ((cfg0.win 3).blk t).view.set := by
  have hi0 : (i 0).val < 65536 := (i 0).isLt
  have hi1 : (i 1).val < 3 := (i 1).isLt
  have hN : cfg0.N = 256 := N_0
  obtain ⟨t, ht⟩ : ∃ t : Fin cfg0.N, t.val = 4 * ((i 0).val / 1024) + 3 := ⟨⟨_, by rw [hN]; omega⟩, rfl⟩
  obtain ⟨-, -, -, -, -, -, e0, e1⟩ := idx_facts t
  refine ⟨t, (flush0_3 t).mpr (by omega), ?_⟩
  show i ∈ ((View.whole main_v2).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 3 ≤ (i 1).val ∧ (i 1).val < win0_3.index t (1 : Fin 2) * 3 + 3
    rw [e1]; omega

/-- So the result array ends holding the specification of the arguments. -/
theorem final (c : Dev nD) : (dats m 0 c).arrAt 3 cfg0.N = result m c :=
  (dats m 0 c).arrAt_eq_of_cover 3 (result m c) (flushed_eq m c) cover

/-- THE KERNEL'S RUN: every weakly fair execution terminates with the result array at the specification and
    the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.RefValue.lean ====
/-
  The reference computes the specification.

  Read one operation at a time, the reference's result at `(n, d)` is the sum over the 4096 control points
  of `exp( (−((|x_n|² + |y_m|²) − 2·⟨x_n, y_m⟩)) / (1/4) ) · c[m, d]`, where the squared norms are the host's
  sums from `0` over the three coordinates, broadcast along the other axis, and the cross term is the host's
  matrix product with the transposed control points.  Dividing the negated squared distance by `1/4` is
  scaling it by `−4`; the rest is the same expression as the specification's.
-/
import proofs.«118039_j62027917688869_1_alg».proof.Proof.Gen.ReferenceIdeal.Read
import proofs.«118039_j62027917688869_1_alg».proof.Proof.Spec
import proofs.«118039_j62027917688869_1_alg».proof.Proof.Consts
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The host's squared norm of point `n`, broadcast over the control points. -/
theorem xnorm_apply (x2 : (⟨S65536x3, .f32⟩ : BufTy).Contents (Elt Ideal)) (n : Fin 65536) (j : Fin 4096) :
    val_main_v8 (F := Ideal) x2 (ix2 n j) = Cert.Rbf.dot3 x2 x2 n n := by
  rw [val_main_v8_apply, val_main_v4_apply, val_main_v3_apply]
  unfold Cert.Rbf.dot3
  rw [show (val_main_cst (F := Ideal)) (Shape.Idx.first h_S_) = 0 from Ideal.ofBits_zero_f32, zero_add]
  refine Finset.sum_congr rfl fun a _ => ?_
  rw [val_main_v2_apply]
  have e : idx_main_v3 (idx_main_v4 (idx_main_v8 (ix2 n j))) a = ix2 n a :=
    funext fun d => Fin.ext (by match d with | ⟨0, _⟩ => rfl | ⟨1, _⟩ => rfl)
  rw [e]
  rfl

/-- The host's squared norm of control point `j`, broadcast over the points. -/
theorem ynorm_apply (x0 : (⟨S12288, .f32⟩ : BufTy).Contents (Elt Ideal)) (n : Fin 65536) (j : Fin 4096) :
    val_main_v9 (F := Ideal) x0 (ix2 n j) = Cert.Rbf.dot3 (val_main_v0 (F := Ideal) x0) (val_main_v0 (F := Ideal) x0) j j := by
  rw [val_main_v9_apply, val_main_v7_apply, val_main_v6_apply]
  unfold Cert.Rbf.dot3
  rw [show (val_main_cst_0 (F := Ideal)) (Shape.Idx.first h_S_) = 0 from Ideal.ofBits_zero_f32, zero_add]
  refine Finset.sum_congr rfl fun a _ => ?_
  rw [val_main_v5_apply]
  have e : idx_main_v6 (idx_main_v7 (idx_main_v9 (ix2 n j))) a = ix2 j a :=
    funext fun d => Fin.ext (by match d with | ⟨0, _⟩ => rfl | ⟨1, _⟩ => rfl)
  rw [e]
  rfl

/-- The host's cross term: the inner product of point `n` with control point `j`. -/
theorem cross_apply (x0 : (⟨S12288, .f32⟩ : BufTy).Contents (Elt Ideal)) (x2 : (⟨S65536x3, .f32⟩ : BufTy).Contents (Elt Ideal))
    (n : Fin 65536) (j : Fin 4096) :
    val_main_v12 (F := Ideal) x0 x2 (ix2 n j) = Cert.Rbf.dot3 x2 (val_main_v0 (F := Ideal) x0) n j := by
  rw [val_main_v12_apply]
  unfold Cert.Rbf.dot3
  refine Finset.sum_congr rfl fun a _ => ?_
  rw [val_main_v11_apply]
  have el : lidx_main_v12 (ix2 n j) a = ix2 n a :=
    funext fun d => Fin.ext (by match d with | ⟨0, _⟩ => rfl | ⟨1, _⟩ => rfl)
  have er : idx_main_v11 (ridx_main_v12 (ix2 n j) a) = ix2 j a :=
    funext fun d => Fin.ext (by match d with | ⟨0, _⟩ => rfl | ⟨1, _⟩ => rfl)
  rw [el, er]

/-- The host's weight between point `n` and control point `j` is the specification's. -/
theorem weight_apply (x0 : (⟨S12288, .f32⟩ : BufTy).Contents (Elt Ideal)) (x2 : (⟨S65536x3, .f32⟩ : BufTy).Contents (Elt Ideal))
    (n : Fin 65536) (j : Fin 4096) :
    val_main_v19 (F := Ideal) x0 x2 (ix2 n j) = Cert.Rbf.wgt x2 (val_main_v0 (F := Ideal) x0) n j := by
  rw [val_main_v19_apply, val_main_v18_apply, val_main_v16_apply, val_main_v15_apply, val_main_v10_apply,
    val_main_v14_apply, val_main_v13_apply, val_main_cst_1_apply, val_main_v17_apply, val_main_cst_2_apply,
    xnorm_apply, ynorm_apply, cross_apply]
  unfold Cert.Rbf.wgt Cert.Rbf.sqd
  simp only [Ideal.hostUnary_exp_def, Ideal.hostDivf_def, Ideal.hostNegf_def, Ideal.negf_def, Ideal.subf_def, Ideal.addf_def,
    Ideal.mulf_def, Ideal.ofBits_def, Cert.RbfConsts.ofBits_quarter]
  rw [← Cert.Rbf.scale_eq]

/-- THE REFERENCE'S RESULT is the specification at the reshaped control points and momenta. -/
theorem result_eq (x0 x1 : (⟨S12288, .f32⟩ : BufTy).Contents (Elt Ideal)) (x2 : (⟨S65536x3, .f32⟩ : BufTy).Contents (Elt Ideal)) :
    val_main_v20 (F := Ideal) x0 x1 x2
      = Cert.Rbf.out (val_main_v0 (F := Ideal) x0) (val_main_v1 (F := Ideal) x1) x2 := by
  funext i
  obtain ⟨n, d, rfl⟩ : ∃ (n : Fin 65536) (d : Fin 3), i = ix2 n d := ⟨i 0, i 1, eq_ix2 i⟩
  rw [val_main_v20_apply]
  unfold Cert.Rbf.out
  refine Finset.sum_congr rfl fun j _ => ?_
  have el : lidx_main_v20 (ix2 n d) j = ix2 n j :=
    funext fun a => Fin.ext (by match a with | ⟨0, _⟩ => rfl | ⟨1, _⟩ => rfl)
  have er : ridx_main_v20 (ix2 n d) j = ix2 j d :=
    funext fun a => Fin.ext (by match a with | ⟨0, _⟩ => rfl | ⟨1, _⟩ => rfl)
  rw [el, er, weight_apply]

end Cert.ReferenceIdeal.RefValue

end
-- ==== Proof.lean ====
/-
  The Gaussian-kernel product `out[n, d] = ∑_m exp(−‖x_n − y_m‖² / σ²) · c[m, d]` with `σ = 1/2`, for 65536
  points and 4096 control points in three coordinates: a tiled kernel against its plain reference, equal over
  the extended reals.

  Both programs expand the squared distance as `(|x|² + |y|²) − 2·⟨x, y⟩`.  The kernel multiplies it by `−4`
  where the reference negates it and divides by `1/4`: the same extended real, at the infinities too.  The
  kernel walks a `64 × 4` grid: for each block of 1024 points it accumulates, over four blocks of 1024
  control points, the block products into a scratch accumulator that starts from zero, and writes the
  accumulator out after the fourth; the reference takes one product over all 4096 control points.  A sum of
  extended reals may be regrouped and reordered freely, so the two agree without any appeal to finiteness
  of the inputs.  The change of float format before the kernel's second product is the identity at this
  instance.

  The three frames come from the generated frame modules (the reference's is its run with the result
  dropped); the idealized kernel is the kernel's own text read over the extended reals, so nothing is owed
  for the idealization; the value claim sets the kernel's run (the accumulated blocks, opened in
  `KernelValue`) beside the reference's run read one operation at a time (`RefValue`), both at the
  specification `Cert.Rbf.out`.
-/
import proofs.«118039_j62027917688869_1_alg».proof.Defs
import proofs.«118039_j62027917688869_1_alg».proof.Proof.Gen.Kernel
import proofs.«118039_j62027917688869_1_alg».proof.Proof.Gen.Kernel.Frame
import proofs.«118039_j62027917688869_1_alg».proof.Proof.Gen.KernelIdeal
import proofs.«118039_j62027917688869_1_alg».proof.Proof.Gen.KernelIdeal.Frame
import proofs.«118039_j62027917688869_1_alg».proof.Proof.Gen.KernelIdeal.Value
import proofs.«118039_j62027917688869_1_alg».proof.Proof.Gen.ReferenceIdeal
import proofs.«118039_j62027917688869_1_alg».proof.Proof.Gen.ReferenceIdeal.Run
import proofs.«118039_j62027917688869_1_alg».proof.Proof.Gen.ReferenceIdeal.Read
import proofs.«118039_j62027917688869_1_alg».proof.Proof.Gen.Pre_finite_inputs
import proofs.«118039_j62027917688869_1_alg».proof.Proof.KernelValue
import proofs.«118039_j62027917688869_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten in the idealization: nothing to prove. -/
theorem preserves : Cert.preserves_Kernel_KernelIdeal := trivial

/-- At the ideal instance the kernel's result array ends at the specification of its arguments, and the
    reference's at the specification of arguments that agree with them. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
